-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S10000x256 : Shape := ⟨2, ![10000, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_

variable [Facts]

def fn {F : FTy → Type} [FloatOps F] (main_arg0 : FVec F S16384x256 .f32) (main_arg1 : FVec F S10000x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  main_v8
-- ==== Kernel.lean ====
abbrev S16384x256 : Shape := ⟨2, ![16384, 256]⟩
abbrev S10000x256 : Shape := ⟨2, ![10000, 256]⟩
abbrev S_ : Shape := ⟨0, ![]⟩
abbrev S10000 : Shape := ⟨1, ![10000]⟩
abbrev S10000x1 : Shape := ⟨2, ![10000, 1]⟩
abbrev S10240x256 : Shape := ⟨2, ![10240, 256]⟩
abbrev S16384 : Shape := ⟨1, ![16384]⟩
abbrev S16384x1 : Shape := ⟨2, ![16384, 1]⟩
abbrev S16384x10000 : Shape := ⟨2, ![16384, 10000]⟩
abbrev S2048x256 : Shape := ⟨2, ![2048, 256]⟩
abbrev S640x256 : Shape := ⟨2, ![640, 256]⟩
abbrev S2048x1 : Shape := ⟨2, ![2048, 1]⟩
abbrev S2048x640 : Shape := ⟨2, ![2048, 640]⟩

abbrev nBuf : Space → Nat
  | .hbm => 28
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S10000x256, .f32⟩
  | .hbm, ⟨2, _⟩ => ⟨S10000x256, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x256, .f32⟩
  | .hbm, ⟨11, _⟩ => ⟨S10000x256, .f32⟩
  | .hbm, ⟨12, _⟩ => ⟨S10000x256, .bf16⟩
  | .hbm, ⟨13, _⟩ => ⟨S_, .i32⟩
  | .hbm, ⟨14, _⟩ => ⟨S_, .bf16⟩
  | .hbm, ⟨15, _⟩ => ⟨S10240x256, .bf16⟩
  | .hbm, ⟨16, _⟩ => ⟨S16384x256, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x10000, .f32⟩
  | .local _ .vmem, ⟨0, _⟩ => ⟨S2048x256, .f32⟩
  | .local _ .vmem, ⟨1, _⟩ => ⟨S2048x256, .f32⟩
  | .local _ .vmem, ⟨2, _⟩ => ⟨S640x256, .bf16⟩
  | .local _ .vmem, ⟨3, _⟩ => ⟨S640x256, .bf16⟩
  | .local _ .vmem, ⟨4, _⟩ => ⟨S2048x1, .f32⟩
  | .local _ .vmem, ⟨5, _⟩ => ⟨S2048x1, .f32⟩
  | .local _ .vmem, ⟨6, _⟩ => ⟨S2048x640, .f32⟩
  | .local _ .vmem, ⟨7, _⟩ => ⟨S2048x640, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bitsLt_bf16_f32 : FTy.bits .bf16 < FTy.bits .f32
  pads_S10000x256_S10240x256_02400_000 : S10000x256.Pads (![0, 0] : Fin 2 → Nat) ![240, 0] ![0, 0] S10240x256
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  inb_S2048x256_S2048x256_0_0 : ∀ a, (![0, 0] : Fin 2 → Nat) a + S2048x256.size a ≤ S2048x256.size a
  h_S2048x256 : 0 < S2048x256.numel
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x640 : S2048x1.Broadcasts S2048x640
  inb_S2048x640_S2048x640_0_0 : ∀ a, (![0, 0] : Fin 2 → Nat) a + S2048x640.size a ≤ S2048x640.size a
  h_S2048x640 : 0 < S2048x640.numel
  dot_S2048x256_S640x256_S2048x640_1_1_0_0_n_n_wf : DotDims.WF S2048x256 S640x256 S2048x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x256.size a ≤ S10240x256.size a
  hwx0_1 : ∀ i : grid0.Coords, EltTy.bits .bf16 = 32 ∨ (Rect.block (s := S10240x256) S640x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x640.size a < S16384x10000.size a
  hwx0_3 : ∀ i : grid0.Coords, EltTy.bits .f32 = 32 ∨ (Rect.unit (s := S16384x10000) (fun a => cc0_transform_3 i a * S2048x640.size a) (fun a => (Pipeline.Clip.of (cc0_transform_3 i a) (S2048x640.size a) (S16384x10000.size a)).extent (S2048x640.size a)) fun a => Pipeline.Clip.inb (Pipeline.Clip.ok_of (hstart0_3 i a))).WholeWords (EltTy.packing .f32)
  hwxs0_3 : ∀ i : grid0.Coords, EltTy.bits .f32 = 32 ∨ (Rect.unit (s := S2048x640) (fun _ => 0) (fun a => (Pipeline.Clip.of (cc0_transform_3 i a) (S2048x640.size a) (S16384x10000.size a)).extent (S2048x640.size a)) fun a => (Nat.zero_add _).trans_le (Pipeline.Clip.extent_le (Pipeline.Clip.ok_of (hstart0_3 i a)))).WholeWords (EltTy.packing .f32)

variable [Facts₀]

def dot_S2048x256_S640x256_S2048x640_1_1_0_0_n_n : DotDims S2048x256 S640x256 S2048x640 where
  lhsContracting := [1]
  rhsContracting := [1]
  lhsNonContracting := [0]
  rhsNonContracting := [0]
  lhsBatch := []
  rhsBatch := []
  wf := dot_S2048x256_S640x256_S2048x640_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S640x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v18) S2048x640.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x256 : Shape := ⟨2, ![16384, 256]⟩
abbrev S10000x256 : Shape := ⟨2, ![10000, 256]⟩
abbrev S256x10000 : Shape := ⟨2, ![256, 10000]⟩
abbrev S16384x10000 : Shape := ⟨2, ![16384, 10000]⟩
abbrev S_ : Shape := ⟨0, ![]⟩
abbrev S16384 : Shape := ⟨1, ![16384]⟩
abbrev S10000 : Shape := ⟨1, ![10000]⟩
abbrev S16384x1 : Shape := ⟨2, ![16384, 1]⟩
abbrev S1x10000 : Shape := ⟨2, ![1, 10000]⟩

abbrev nBuf : Space → Nat
  | .hbm => 24
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S10000x256, .f32⟩
  | .hbm, ⟨2, _⟩ => ⟨S256x10000, .f32⟩
  | .hbm, ⟨3, _⟩ => ⟨S16384x10000, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S10000x256, .f32⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S16384x1, .f32⟩
  | .hbm, ⟨19, _⟩ => ⟨S1x10000, .f32⟩
  | .hbm, ⟨20, _⟩ => ⟨S16384x10000, .f32⟩
  | .hbm, ⟨21, _⟩ => ⟨S16384x10000, .f32⟩
  | .hbm, ⟨22, _⟩ => ⟨S16384x10000, .f32⟩
  | .hbm, ⟨23, _⟩ => ⟨S16384x10000, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  transposes_S10000x256_S256x10000_1_0 : S10000x256.Transposes [1, 0] S256x10000
  reducesTo_S16384x256_S16384_d1 : S16384x256.ReducesTo [1] S16384
  h_S_ : 0 < S_.numel
  bcast_S_S16384 : S_.BroadcastsInDim S16384 (![] : Fin 0 → Fin S16384.rank)
  reducesTo_S10000x256_S10000_d1 : S10000x256.ReducesTo [1] S10000
  bcast_S_S10000 : S_.BroadcastsInDim S10000 (![] : Fin 0 → Fin S10000.rank)
  bcast_S16384_S16384x1_0 : S16384.BroadcastsInDim S16384x1 (![0] : Fin 1 → Fin S16384x1.rank)
  bcast_S10000_S1x10000_1 : S10000.BroadcastsInDim S1x10000 (![1] : Fin 1 → Fin S1x10000.rank)
  bcast_S16384x1_S16384x10000_0_1 : S16384x1.BroadcastsInDim S16384x10000 (![0, 1] : Fin 2 → Fin S16384x10000.rank)
  bcast_S1x10000_S16384x10000_0_1 : S1x10000.BroadcastsInDim S16384x10000 (![0, 1] : Fin 2 → Fin S16384x10000.rank)
  dot_S16384x256_S256x10000_S16384x10000_1_0_0_1_n_n_wf : DotDims.WF S16384x256 S256x10000 S16384x10000 [1] [0] [0] [1] [] []

variable [Facts₀]

def dot_S16384x256_S256x10000_S16384x10000_1_0_0_1_n_n : DotDims S16384x256 S256x10000 S16384x10000 where
  lhsContracting := [1]
  rhsContracting := [0]
  lhsNonContracting := [0]
  rhsNonContracting := [1]
  lhsBatch := []
  rhsBatch := []
  wf := dot_S16384x256_S256x10000_S16384x10000_1_0_0_1_n_n_wf

class Facts : Prop extends Facts₀ where

variable [Facts]
-- ==== Proof.Payload.lean ====
/-
  What the kernel body stores, read at one element. The body loads a 2048 × 256 block of x, a 640 × 256 block
  of the normalised table and a 2048 × 1 column of reciprocal norms, multiplies the first two on the matrix unit
  contracting the length-256 axis of BOTH (so the second block enters transposed), and scales row r of the product
  by the column's entry r. At the ideal values the change of float format on the way into the matrix unit is the
  identity and the product into the zero accumulator is the bare sum, so element (r, q) of the stored block is
      (Σₖ x0(r, k) · x1(q, k)) · x2(r, 0).
-/
import proofs.«123242_j56495999812266_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The contraction's shape record: axis 1 of each operand contracted, axis 0 of each kept. -/
abbrev D := dot_S2048x256_S640x256_S2048x640_1_1_0_0_n_n

/-- The left operand's index at output (r, q) and contraction coordinate k is (r, k): axis 0 is kept, -/
theorem lhs0 (i : S2048x640.Idx) (κ : D.contr.Idx) : (D.lhsIdx i κ 0).val = (i 0).val := by
  unfold DotDims.lhsIdx
  rw [dif_neg (show ¬(0 : Fin S2048x256.rank) ∈ D.lhsBatch by decide), dif_pos (show (0 : Fin S2048x256.rank) ∈ D.lhsNonContracting by decide)]
  rfl
/-- axis 1 is the contracted one; -/
theorem lhs1 (i : S2048x640.Idx) (κ : D.contr.Idx) : (D.lhsIdx i κ 1).val = (κ ⟨0, by decide⟩).val :=
  D.lhsIdx_val_of_single rfl i κ
/-- and the right operand's is (q, k): its kept axis 0 is the output's axis 1, -/
theorem rhs0 (i : S2048x640.Idx) (κ : D.contr.Idx) : (D.rhsIdx i κ 0).val = (i 1).val := by
  unfold DotDims.rhsIdx
  rw [dif_neg (show ¬(0 : Fin S640x256.rank) ∈ D.rhsBatch by decide), dif_pos (show (0 : Fin S640x256.rank) ∈ D.rhsNonContracting by decide)]
  rfl
/-- its axis 1 the contracted one. -/
theorem rhs1 (i : S2048x640.Idx) (κ : D.contr.Idx) : (D.rhsIdx i κ 1).val = (κ ⟨0, by decide⟩).val :=
  D.rhsIdx_val_of_single rfl i κ

/-- The matrix product into the zero accumulator at (r, q): the sum over the 256 contracted coordinates. -/
theorem product_apply (a : FVec Ideal S2048x256 .bf16) (b : FVec Ideal S640x256 .bf16) (r : Fin 2048) (q : Fin 640) :
    matmul D none a b (constant S2048x640 .f32 0x00000000#32) (ix2 r q) = ∑ k : Fin 256, a (ix2 r k) * b (ix2 q k) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 r q) ((contrEquiv1 D 256 rfl rfl).symm k) = ix2 r k := funext fun a => Fin.ext (by
    match a with
    | ⟨0, _⟩ => exact lhs0 _ _
    | ⟨1, _⟩ => exact (lhs1 _ _).trans hk)
  have er : D.rhsIdx (ix2 r q) ((contrEquiv1 D 256 rfl rfl).symm k) = ix2 q k := funext fun a => Fin.ext (by
    match a with
    | ⟨0, _⟩ => exact rhs0 _ _
    | ⟨1, _⟩ => exact (rhs1 _ _).trans hk)
  rw [el, er]

/-- A 2048 × 1 column broadcast along the lanes reads, at (r, q), the column's entry r. -/
theorem column_apply (v : FVec Ideal S2048x1 .f32) (r : Fin 2048) (q : Fin 640) :
    broadcastTo S2048x640 v broadcasts_S2048x1_S2048x640 (ix2 r q) = v (ix2 r 0) :=
  broadcastTo_apply v broadcasts_S2048x1_S2048x640 (ix2 r q) (ix2 r 0) (fun a => by
    match a with
    | ⟨0, _⟩ => show r.val = if (2048 : Nat) = 1 then 0 else r.val; rw [if_neg (by decide)]
    | ⟨1, _⟩ => show 0 = if (1 : Nat) = 1 then 0 else q.val; rw [if_pos rfl])

/-- THE STORED BLOCK AT (r, q): the row-by-row dot product of the two loaded blocks, scaled by the column's entry. -/
theorem pay_apply (x0 : FVec Ideal S2048x256 .f32) (x1 : FVec Ideal S640x256 .bf16) (x2 : FVec Ideal S2048x1 .f32)
    (r : Fin 2048) (q : Fin 640) :
    k0_pay1 (F := Ideal) x0 x1 x2 (ix2 r q) = (∑ k : Fin 256, x0 (ix2 r k) * x1 (ix2 q k)) * x2 (ix2 r 0) := by
  unfold k0_pay1
  rw [shapeCast_self, shapeCast_self]
  exact congrArg₂ (· * ·) (product_apply (truncf .bf16 x0 bitsLt_bf16_f32) x1 r q) (column_apply x2 r q)

end Cert.KernelIdeal.Payload

end
-- ==== Proof.Blocks.lean ====
/-
  From the blocks the grid points write back to the whole result array.
  The grid has 8 × 16 points; point (i, j) computes the 2048 × 640 block of the product from rows
  2048·i … of x (and of the column of reciprocal norms) and rows 640·j … of the normalised table, and writes it
  back at rows 2048·i …, columns 640·j … of the 16384 × 10000 result. The table has 16 · 640 = 10240 rows but
  the result only 10000 columns: the last column block overhangs by 240, and its write-back is cut to the
  400 columns inside the array. So every element (n, c) of the result is written, by the point (n / 2048, c / 640),
  and what is written there is
      (Σₖ x(n, k) · T(c, k)) · R(n, 0),
  T the 10240-row table and R the column, as the region finds them; the rows 10000 … 10239 of T are never read
  for an element inside the array.
-/
import proofs.«123242_j56495999812266_2_alg».proof.Proof.Gen.KernelIdeal.Value
import proofs.«123242_j56495999812266_2_alg».proof.Proof.Payload

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The whole-array function -/

/-- Element i = (n, c) of the result as a function of x, of the 10240-row table and of the column of reciprocals:
    the dot product of row n of x with row c of the table, times entry n of the column. -/
def G (A0 : S16384x256.Idx → EReal) (A1 : S10240x256.Idx → EReal) (A2 : S16384x1.Idx → EReal) : S16384x10000.Idx → EReal :=
  fun i =>
    (∑ k : Fin 256, A0 (ix2 (⟨(i 0).val, idx2_lt0 i⟩ : Fin 16384) k)
        * A1 (ix2 (⟨(i 1).val, Nat.lt_trans (idx2_lt1 i) (by decide)⟩ : Fin 10240) k))
      * A2 (ix2 (⟨(i 0).val, idx2_lt0 i⟩ : Fin 16384) (0 : Fin 1))

/-- The same with the row and the column named by their values. -/
theorem G_apply (A0 : S16384x256.Idx → EReal) (A1 : S10240x256.Idx → EReal) (A2 : S16384x1.Idx → EReal)
    (i : S16384x10000.Idx) (n : Fin 16384) (c' : Fin 10240) (hn : n.val = (i 0).val) (hc : c'.val = (i 1).val) :
    G A0 A1 A2 i = (∑ k : Fin 256, A0 (ix2 n k) * A1 (ix2 c' k)) * A2 (ix2 n (0 : Fin 1)) := by
  have en : n = ⟨(i 0).val, idx2_lt0 i⟩ := Fin.ext hn
  have ec : c' = ⟨(i 1).val, Nat.lt_trans (idx2_lt1 i) (by decide)⟩ := Fin.ext hc
  unfold G
  rw [← en, ← ec]

/-! ## The index maps, decided over the 128 grid points -/

theorem hz : (![0, 0] : Fin 2 → Nat) = fun _ => 0 := funext fun a => by fin_cases a <;> rfl

/-- x's and the column's blocks move with the result's row block, the table's with the result's column block; none
    moves along its own second axis; the result's block indices stay below 8 and 16. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 7 ∧ win0_3.index t (1 : Fin 2) ≤ 15 :=
  (by decide +kernel : ∀ t : Fin grid0.N, _)

/-- What the write-back at each point moves: all 2048 rows, and the block's columns up to the array's end
    (640 of them, 400 in the last column block). -/
theorem cut_facts : ∀ t : Fin cfg0.N, win0_3.xsize (grid0.coords t) (0 : Fin 2) = 2048
    ∧ win0_3.index t (1 : Fin 2) * 640 + win0_3.xsize (grid0.coords t) (1 : Fin 2) = min (win0_3.index t (1 : Fin 2) * 640 + 640) 10000 :=
  (by decide +kernel : ∀ t : Fin grid0.N, _)

/-- Every pair of a row block and a column block is some point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-! ## The input blocks, read where the output's block says -/

/-- Row r of x's block at point t is row (block index · 2048 + r) of x. -/
theorem read_x (c : Dev nD) (t : Fin cfg0.N) (r : Fin 2048) (k : Fin 256) (n : Fin 16384)
    (hn : n.val = win0_0.index t (0 : Fin 2) * 2048 + r.val) (h1 : win0_0.index t (1 : Fin 2) = 0) :
    iblk m c 0 t (ix2 r k : S2048x256.Idx) = V m c main_arg0 (ix2 n k : S16384x256.Idx) := by
  show V m c main_arg0 (((cfg0.win 0).blk t).view.emb (ix2 r k : S2048x256.Idx)) = V m c main_arg0 (ix2 n k : S16384x256.Idx)
  refine congrArg (V m c main_arg0) (funext fun a => Fin.ext ?_)
  match a with
  | ⟨0, _⟩ => show win0_0.index t (0 : Fin 2) * 2048 + 1 * r.val = n.val; omega
  | ⟨1, _⟩ => show win0_0.index t (1 : Fin 2) * 256 + 1 * k.val = k.val; omega

/-- Row q of the table's block at point t is row (block index · 640 + q) of the table. -/
theorem read_table (c : Dev nD) (t : Fin cfg0.N) (q : Fin 640) (k : Fin 256) (c' : Fin 10240)
    (hc : c'.val = win0_1.index t (0 : Fin 2) * 640 + q.val) (h1 : win0_1.index t (1 : Fin 2) = 0) :
    iblk m c 1 t (ix2 q k : S640x256.Idx) = V m c main_v9 (ix2 c' k : S10240x256.Idx) := by
  show V m c main_v9 (((cfg0.win 1).blk t).view.emb (ix2 q k : S640x256.Idx)) = V m c main_v9 (ix2 c' k : S10240x256.Idx)
  refine congrArg (V m c main_v9) (funext fun a => Fin.ext ?_)
  match a with
  | ⟨0, _⟩ => show win0_1.index t (0 : Fin 2) * 640 + 1 * q.val = c'.val; omega
  | ⟨1, _⟩ => show win0_1.index t (1 : Fin 2) * 256 + 1 * k.val = k.val; omega

/-- Entry r of the column's block at point t is entry (block index · 2048 + r) of the column. -/
theorem read_col (c : Dev nD) (t : Fin cfg0.N) (r : Fin 2048) (n : Fin 16384)
    (hn : n.val = win0_2.index t (0 : Fin 2) * 2048 + r.val) (h1 : win0_2.index t (1 : Fin 2) = 0) :
    iblk m c 2 t (ix2 r (0 : Fin 1) : S2048x1.Idx) = V m c main_v17 (ix2 n (0 : Fin 1) : S16384x1.Idx) := by
  show V m c main_v17 (((cfg0.win 2).blk t).view.emb (ix2 r (0 : Fin 1) : S2048x1.Idx)) = V m c main_v17 (ix2 n (0 : Fin 1) : S16384x1.Idx)
  refine congrArg (V m c main_v17) (funext fun a => Fin.ext ?_)
  match a with
  | ⟨0, _⟩ => show win0_2.index t (0 : Fin 2) * 2048 + 1 * r.val = n.val; omega
  | ⟨1, _⟩ => show win0_2.index t (1 : Fin 2) * 1 + 1 * 0 = 0; omega

/-! ## What a point writes back -/

/-- WHAT POINT t WRITES BACK is its block — cut at the array's end — of `G` of the three arrays as the region finds them. -/
theorem flushed_eq (c : Dev nD) (t : Fin cfg0.N) :
    (dats m 0 c).flushed 3 t
      = ((cfg0.win 3).blk t).view.read (Elt Ideal) (G (V m c main_arg0) (V m c main_v9) (V m c main_v17)) := by
  rw [Cert.KernelIdeal.Value.flushed3]
  unfold out0_3
  rw [View.canon_unit_zero hz]
  simp only [View.ld_unit_zero (S := S2048x256) hz, View.ld_unit_zero (S := S640x256) hz, View.ld_unit_zero (S := S2048x1) hz]
  obtain ⟨e0, e1, e2, e3, e4, e5, b0, b1⟩ := idx_facts t
  obtain ⟨s0, s1⟩ := cut_facts t
  funext y
  have hy0 : (y 0).val < win0_3.xsize (grid0.coords t) (0 : Fin 2) := (y 0).isLt
  have hy1 : (y 1).val < win0_3.xsize (grid0.coords t) (1 : Fin 2) := (y 1).isLt
  have hr : (y 0).val < 2048 := by omega
  have hq : (y 1).val < 640 := by omega
  have hn : win0_3.index t (0 : Fin 2) * 2048 + (y 0).val < 16384 := by omega
  have hc : win0_3.index t (1 : Fin 2) * 640 + (y 1).val < 10240 := by omega
  -- the element of the full block the cut reads, by its coordinates
  have hxinj : (cfg0.win 3).xinj (grid0.coords t) y = (ix2 (⟨(y 0).val, hr⟩ : Fin 2048) (⟨(y 1).val, hq⟩ : Fin 640) : S2048x640.Idx) :=
    funext fun a => Fin.ext (by match a with | ⟨0, _⟩ => rfl | ⟨1, _⟩ => rfl)
  show k0_pay1 (F := Ideal) (iblk m c 0 t) (iblk m c 1 t) (iblk m c 2 t) ((cfg0.win 3).xinj (grid0.coords t) y)
      = G (V m c main_arg0) (V m c main_v9) (V m c main_v17) (((cfg0.win 3).blk t).view.emb y)
  rw [hxinj]
  refine (Cert.KernelIdeal.Payload.pay_apply (iblk m c 0 t) (iblk m c 1 t) (iblk m c 2 t) ⟨(y 0).val, hr⟩ ⟨(y 1).val, hq⟩).trans ?_
  rw [G_apply (V m c main_arg0) (V m c main_v9) (V m c main_v17) (((cfg0.win 3).blk t).view.emb y)
    ⟨win0_3.index t (0 : Fin 2) * 2048 + (y 0).val, hn⟩ ⟨win0_3.index t (1 : Fin 2) * 640 + (y 1).val, hc⟩
    (by show win0_3.index t (0 : Fin 2) * 2048 + (y 0).val = win0_3.index t (0 : Fin 2) * 2048 + 1 * (y 0).val; omega)
    (by show win0_3.index t (1 : Fin 2) * 640 + (y 1).val = win0_3.index t (1 : Fin 2) * 640 + 1 * (y 1).val; omega)]
  refine congrArg₂ (· * ·) (Finset.sum_congr rfl fun k _ => congrArg₂ (· * ·) ?_ ?_) ?_
  · exact read_x m c t ⟨(y 0).val, hr⟩ k ⟨win0_3.index t (0 : Fin 2) * 2048 + (y 0).val, hn⟩
      (by show win0_3.index t (0 : Fin 2) * 2048 + (y 0).val = win0_0.index t (0 : Fin 2) * 2048 + (y 0).val; omega) e1
  · exact read_table m c t ⟨(y 1).val, hq⟩ k ⟨win0_3.index t (1 : Fin 2) * 640 + (y 1).val, hc⟩
      (by show win0_3.index t (1 : Fin 2) * 640 + (y 1).val = win0_1.index t (0 : Fin 2) * 640 + (y 1).val; omega) e3
  · exact read_col m c t ⟨(y 0).val, hr⟩ ⟨win0_3.index t (0 : Fin 2) * 2048 + (y 0).val, hn⟩
      (by show win0_3.index t (0 : Fin 2) * 2048 + (y 0).val = win0_2.index t (0 : Fin 2) * 2048 + (y 0).val; omega) e5

/-! ## The cover -/

/-- An element of the array is in point t's cut block iff each coordinate is in the block's range inside the array. -/
theorem mem_blk (t : Fin cfg0.N) (i : S16384x10000.Idx) :
    i ∈ ((cfg0.win 3).blk t).view.set ↔ ∀ a : Fin 2, win0_3.index t a * S2048x640.size a ≤ (i a).val
      ∧ (i a).val < win0_3.index t a * S2048x640.size a + win0_3.xsize (grid0.coords t) a := by
  show i ∈ ((View.whole main_v18).slice (win0_3.rect t)).set ↔ _
  rw [View.set_slice_whole, Rect.mem_set_unit]
  exact Iff.rfl

/-- Every element (n, c) of the result is in the cut block of the point (n / 2048, c / 640). -/
theorem cover (i : S16384x10000.Idx) : ∃ t : Fin cfg0.N, (cfg0.win 3).flush t = true ∧ i ∈ ((cfg0.win 3).blk t).view.set := by
  have hi0 : (i 0).val < 16384 := idx2_lt0 i
  have hi1 : (i 1).val < 10000 := idx2_lt1 i
  obtain ⟨t, ht⟩ := idx_onto ⟨(i 0).val / 2048, by omega⟩ ⟨(i 1).val / 640, by omega⟩
  have q0 : win0_3.index t (0 : Fin 2) = (i 0).val / 2048 := congrFun ht 0
  have q1 : win0_3.index t (1 : Fin 2) = (i 1).val / 640 := congrFun ht 1
  obtain ⟨s0, s1⟩ := cut_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + win0_3.xsize (grid0.coords t) (0 : Fin 2)
    omega
  | ⟨1, _⟩ =>
    show win0_3.index t (1 : Fin 2) * 640 ≤ (i 1).val ∧ (i 1).val < win0_3.index t (1 : Fin 2) * 640 + win0_3.xsize (grid0.coords t) (1 : Fin 2)
    omega

/-! ## The array after the run -/

/-- THE RESULT ARRAY after the run is `G` of x, the table and the column as the region finds them. -/
theorem final (c : Dev nD) :
    (dats m 0 c).arrAt 3 cfg0.N = G (V m c main_arg0) (V m c main_v9) (V m c main_v17) :=
  (dats m 0 c).arrAt_eq_of_cover 3 (G (V m c main_arg0) (V m c main_v9) (V m c main_v17)) (fun t _ => flushed_eq m c t) cover

end Cert.KernelIdeal.Blocks

end
-- ==== Proof.Consts.lean ====
/-
  The three f32 literals the two programs spell, as the extended reals their bit patterns denote.
  Both programs clamp a Euclidean norm from below by the same literal (the f32 nearest 1e-6, the dyadic
  8796093 · 2⁻⁴³); all that is used of it is that it is a positive real number. The kernel's host prologue
  also spells 1.0 (the numerator of the reciprocal norm) and both spell +0.0 (the start of a sum).
-/
import Idealize.ShloMosaic.PureOps.Ideal
import Idealize.ShloMosaic.PureOps.Ideal.Laws

noncomputable section

namespace Cert.Cosine

open Idealize.ShloMosaic

/-- The clamp literal as a real number. -/
def epsR : ℝ := 8796093 * (2 : ℝ) ^ (-43 : ℤ)

theorem epsR_pos : 0 < epsR := by unfold epsR; positivity

/-- The pattern 0x358637BD denotes that real. -/
theorem ofBits_eps : Ideal.ofBits .f32 0x358637BD#32 = ((epsR : ℝ) : EReal) := by
  unfold epsR
  simp [Ideal.ofBits, Ideal.ieee, -EReal.coe_mul]

/-- The pattern 0x3F800000 denotes 1. -/
theorem ofBits_one : Ideal.ofBits .f32 0x3F800000#32 = ((1 : ℝ) : EReal) := by
  simp [Ideal.ofBits, Ideal.ieee, -EReal.coe_mul]; norm_num

/-- The pattern of +0.0 denotes 0. -/
theorem ofBits_zero : Ideal.ofBits .f32 0x00000000#32 = ((0 : ℝ) : EReal) := by
  rw [Ideal.ofBits_zero_f32]; rfl

end Cert.Cosine

end
-- ==== Proof.Spec.lean ====
/-
  Cosine similarity of every row of x (16384 × 256) with every row of p (10000 × 256), in the two
  arrangements the programs compute, and the law that joins them.

  Write ‖v‖ for max(√(0 + Σₖ vₖ²), ε), the Euclidean norm clamped below by the literal ε > 0.
  * The reference divides once:           cosRef(n, c) = (Σₖ x(n,k) · p(c,k)) / (‖xₙ‖ · ‖p_c‖).
  * The kernel normalises p first and multiplies by a reciprocal afterwards:
                                           cosKer(n, c) = (Σₖ x(n,k) · (p(c,k) / ‖p_c‖)) · (1 / ‖xₙ‖).
  On the extended reals a division does not come out of a sum in general (∞ − ∞ appears when a summand is
  infinite), so the two are joined only for arrays all of whose entries are real numbers. Then every norm is
  a real number ≥ ε > 0, each quotient by a norm N is the product with the real 1/N, and the identity is
  (Σₖ aₖ · (bₖ · (1/Np))) · (1 · (1/Nx)) = (Σₖ aₖ · bₖ) · (1/(Nx · Np)), arithmetic in ℝ.
-/
import proofs.«123242_j56495999812266_2_alg».proof.Proof.Consts
import Idealize.ShloMosaic.Lib.ValueIdx

noncomputable section

namespace Cert.Cosine

open Idealize.ShloMosaic Idealize.ShloMosaic.ValueIdx

/-- The shapes of x and of p. -/
abbrev SX : Shape := ⟨2, ![16384, 256]⟩
abbrev SP : Shape := ⟨2, ![10000, 256]⟩

/-- From a sum of squares s to the clamped norm: max(√(0 + s), ε), with 0 and ε the programs' literals. -/
def clampNorm (s : EReal) : EReal :=
  max (Ideal.sqrt (Ideal.ofBits .f32 0x00000000#32 + s)) (Ideal.ofBits .f32 0x358637BD#32)

/-- The clamped norm of row n of x, and of row c of p. -/
def normX (x : SX.Idx → EReal) (n : Fin 16384) : EReal := clampNorm (∑ k : Fin 256, x (ix2 n k) * x (ix2 n k))
def normP (p : SP.Idx → EReal) (c : Fin 10000) : EReal := clampNorm (∑ k : Fin 256, p (ix2 c k) * p (ix2 c k))

/-- The reference's entry (n, c): one dot product divided by the product of the two clamped norms. -/
def cosRef (x : SX.Idx → EReal) (p : SP.Idx → EReal) (n : Fin 16384) (c : Fin 10000) : EReal :=
  Ideal.div (∑ k : Fin 256, x (ix2 n k) * p (ix2 c k)) (normX x n * normP p c)

/-- The kernel's entry (n, c): the dot product of row n of x with the row c of p ALREADY divided by its norm,
    times the reciprocal 1 / ‖xₙ‖ (1 the programs' literal 1.0). -/
def cosKer (x : SX.Idx → EReal) (p : SP.Idx → EReal) (n : Fin 16384) (c : Fin 10000) : EReal :=
  (∑ k : Fin 256, x (ix2 n k) * Ideal.div (p (ix2 c k)) (normP p c))
    * Ideal.div (Ideal.ofBits .f32 0x3F800000#32) (normX x n)

/-- The result's shape, and the whole result array: element i = (n, c) is `cosRef` there. -/
abbrev SO : Shape := ⟨2, ![16384, 10000]⟩
def cosArr (x : SX.Idx → EReal) (p : SP.Idx → EReal) : SO.Idx → EReal :=
  fun i => cosRef x p ⟨(i 0).val, idx2_lt0 i⟩ ⟨(i 1).val, idx2_lt1 i⟩

theorem cosArr_ix2 (x : SX.Idx → EReal) (p : SP.Idx → EReal) (n : Fin 16384) (c : Fin 10000) :
    cosArr x p (ix2 n c) = cosRef x p n c := rfl

/-! ## The coercion ℝ → EReal and finite sums, maxima -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ## A clamped norm of real entries is a positive real -/

theorem clampNorm_real (s : ℝ) (hs : 0 ≤ s) : ∃ N : ℝ, 0 < N ∧ clampNorm (s : EReal) = (N : EReal) := by
  refine ⟨max (Real.sqrt s) epsR, lt_max_of_lt_right epsR_pos, ?_⟩
  unfold clampNorm
  rw [ofBits_zero, ofBits_eps, ← EReal.coe_add, zero_add, Ideal.sqrt_coe, if_neg (not_lt.mpr hs), coe_max]

theorem normX_real (x : SX.Idx → EReal) (xr : SX.Idx → ℝ) (h : ∀ i, x i = (xr i : EReal)) (n : Fin 16384) :
    ∃ N : ℝ, 0 < N ∧ normX x n = (N : EReal) := by
  unfold normX
  simp only [h, ← EReal.coe_mul, ← coe_sum]
  exact clampNorm_real _ (Finset.sum_nonneg fun k _ => mul_self_nonneg _)

theorem normP_real (p : SP.Idx → EReal) (pr : SP.Idx → ℝ) (h : ∀ i, p i = (pr i : EReal)) (c : Fin 10000) :
    ∃ N : ℝ, 0 < N ∧ normP p c = (N : EReal) := by
  unfold normP
  simp only [h, ← EReal.coe_mul, ← coe_sum]
  exact clampNorm_real _ (Finset.sum_nonneg fun k _ => mul_self_nonneg _)

/-! ## The law: on real entries the kernel's arrangement is the reference's -/

theorem cosKer_eq_cosRef (x : SX.Idx → EReal) (p : SP.Idx → EReal)
    (hx : ∀ i, ∃ r : ℝ, x i = (r : EReal)) (hp : ∀ i, ∃ r : ℝ, p i = (r : EReal)) (n : Fin 16384) (c : Fin 10000) :
    cosKer x p n c = cosRef x p n c := by
  choose xr hxr using hx
  choose pr hpr using hp
  obtain ⟨Nx, hNx, eNx⟩ := normX_real x xr hxr n
  obtain ⟨Np, hNp, eNp⟩ := normP_real p pr hpr c
  unfold cosKer cosRef
  rw [eNx, eNp, ofBits_one, ← EReal.coe_mul Nx Np, Ideal.div_coe hNx.ne', Ideal.div_coe (mul_pos hNx hNp).ne']
  simp only [hxr, hpr, Ideal.div_coe hNp.ne', ← EReal.coe_mul, ← coe_sum]
  refine congrArg (fun r : ℝ => (r : EReal)) ?_
  simp only [← mul_assoc, ← Finset.sum_mul]
  rw [one_div, one_div, one_div, mul_inv]
  ring

end Cert.Cosine

end
-- ==== Proof.Prologue.lean ====
/-
  What the kernel's host prologue leaves for the region to read.
  Before the one region, the host normalises the table once — row c of p divided, entry by entry, by the clamped norm
  ‖p_c‖ = max(√(0 + Σₖ p(c,k)²), ε), kept as a 10000 × 1 column and broadcast along the row —, rounds it to bf16
  (the identity on the ideal values) and pads it with 240 rows of the integer 0 converted to a float, to 10240 rows;
  and it forms the column of reciprocals 1 / ‖xₙ‖, 16384 × 1. Read at an element:
      table(c, k) = p(c, k) / ‖p_c‖   for a row c < 10000 (a padding row is not needed and not read here),
      column(n, 0) = 1 / ‖xₙ‖,
  with ‖·‖ the specification's `normP`, `normX`.
-/
import proofs.«123242_j56495999812266_2_alg».proof.Proof.Gen.KernelIdeal.Frame
import proofs.«123242_j56495999812266_2_alg».proof.Proof.Spec
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

namespace Cert.KernelIdeal.Prologue

open Cert.KernelIdeal Cert.KernelIdeal.Gen Idealize.ShloMosaic Idealize.ShloMosaic.TcCoe Idealize.SL.Sem
open Idealize.ShloMosaic.ValueIdx Idealize.ShloMosaic.StableHlo

/-! ## The prologue's three values as functions of the arguments -/

/-- The clamped norms of p's rows, as the host keeps them: a 10000 × 1 column. -/
def pnormCol (p : FVec Ideal S10000x256 .f32) : FVec Ideal S10000x1 .f32 :=
  maximumf
    (Host.sqrt (F := Ideal) (broadcastInDim S10000x1 ![0] bcast_S10000_S10000x1_0
      (Host.reduceAdd (F := Ideal) (mulf p p) (constant (F := Ideal) S_ .f32 0x00000000#32) reducesTo_S10000x256_S10000_d1 h_S_)))
    (broadcastInDim S10000x1 ![] bcast_S_S10000x1 (constant (F := Ideal) S_ .f32 0x358637BD#32))

/-- The normalised table, rounded and padded to 10240 rows. -/
def table (p : FVec Ideal S10000x256 .f32) : FVec Ideal S10240x256 .bf16 :=
  pad S10240x256 ![0, 0] ![240, 0] ![0, 0]
    (truncf .bf16 (Host.divf (F := Ideal) p (broadcastInDim S10000x256 ![0, 1] bcast_S10000x1_S10000x256_0_1 (pnormCol p))) bitsLt_bf16_f32)
    (sitofp (F := Ideal) .bf16 (constantI S_ 32 0#32)) pads_S10000x256_S10240x256_02400_000 h_S_

/-- The clamped norms of x's rows, a 16384 × 1 column. -/
def xnormCol (x : FVec Ideal S16384x256 .f32) : FVec Ideal S16384x1 .f32 :=
  maximumf
    (Host.sqrt (F := Ideal) (broadcastInDim S16384x1 ![0] bcast_S16384_S16384x1_0
      (Host.reduceAdd (F := Ideal) (mulf x x) (constant (F := Ideal) S_ .f32 0x00000000#32) reducesTo_S16384x256_S16384_d1 h_S_)))
    (broadcastInDim S16384x1 ![] bcast_S_S16384x1 (constant (F := Ideal) S_ .f32 0x358637BD#32))

/-- The column of reciprocals 1 / ‖xₙ‖. -/
def recipCol (x : FVec Ideal S16384x256 .f32) : FVec Ideal S16384x1 .f32 :=
  Host.divf (F := Ideal) (broadcastInDim S16384x1 ![] bcast_S_S16384x1 (constant (F := Ideal) S_ .f32 0x3F800000#32)) (xnormCol x)

/-! ## The region finds them in its windows' arrays -/

variable (m : (ℓ : Loc nD τ sig) → Buf (Elt Ideal) ℓ)

/-- Window 1's array holds the table of the second argument. -/
theorem V_table (c : Dev nD) :
    (V m c main_v9 : S10240x256.Idx → EReal) = table (m ((c : Thread nD τ).loc main_arg1)) := by
  dsimp only [V]
  simp only [hostOps0, hostOps0_1, hostOps0_2, List.flatten_cons, List.flatten_nil, List.append_nil, List.cons_append,
    List.nil_append]
  after_results
  rfl

/-- Window 2's array holds the column of reciprocals of the first argument. -/
theorem V_recip (c : Dev nD) :
    (V m c main_v17 : S16384x1.Idx → EReal) = recipCol (m ((c : Thread nD τ).loc main_arg0)) := by
  dsimp only [V]
  simp only [hostOps0, hostOps0_1, hostOps0_2, List.flatten_cons, List.flatten_nil, List.append_nil, List.cons_append,
    List.nil_append]
  after_results
  rfl

/-! ## Read at an element -/

/-- A clamped square root read at an index, at any shape: both operations act entry by entry. -/
theorem clampSqrt_apply {S : Shape} (A B : FVec Ideal S .f32) (i : S.Idx) :
    maximumf (Host.sqrt (F := Ideal) A) B i = max (Ideal.sqrt (A i)) (B i) := rfl

/-- The host's quotient read at an index, at any shape. -/
theorem hostDiv_apply {S : Shape} (A B : FVec Ideal S .f32) (i : S.Idx) :
    Host.divf (F := Ideal) A B i = Ideal.div (A i) (B i) := rfl

/-- The host's sum over the second axis of a 10000 × 256 array from the literal +0.0, at row q. -/
theorem rowSumP_apply (y : FVec Ideal S10000x256 .f32) (q : Fin 10000) :
    Host.reduceAdd (F := Ideal) y (constant (F := Ideal) S_ .f32 0x00000000#32) reducesTo_S10000x256_S10000_d1 h_S_ (ix1 q)
      = Ideal.ofBits .f32 0x00000000#32 + ∑ k : Fin 256, y (ix2 q k) := by
  simp only [Host.reduceAdd, Ideal.hostReduceAdd_def]
  rw [Ideal.hostReduceAdd_single reducesTo_S10000x256_S10000_d1 (by decide)]
  refine congrArg₂ (· + ·) rfl (Finset.sum_congr rfl fun k _ => ?_)
  exact congrArg y (funext fun a => Fin.ext (by match a with | ⟨0, _⟩ => rfl | ⟨1, _⟩ => rfl))

/-- The same over a 16384 × 256 array, at row n. -/
theorem rowSumX_apply (y : FVec Ideal S16384x256 .f32) (n : Fin 16384) :
    Host.reduceAdd (F := Ideal) y (constant (F := Ideal) S_ .f32 0x00000000#32) reducesTo_S16384x256_S16384_d1 h_S_ (ix1 n)
      = Ideal.ofBits .f32 0x00000000#32 + ∑ k : Fin 256, y (ix2 n k) := by
  simp only [Host.reduceAdd, Ideal.hostReduceAdd_def]
  rw [Ideal.hostReduceAdd_single reducesTo_S16384x256_S16384_d1 (by decide)]
  refine congrArg₂ (· + ·) rfl (Finset.sum_congr rfl fun k _ => ?_)
  exact congrArg y (funext fun a => Fin.ext (by match a with | ⟨0, _⟩ => rfl | ⟨1, _⟩ => rfl))

/-- Entry q of the column of p's norms is the specification's clamped norm of row q. -/
theorem pnormCol_apply (p : FVec Ideal S10000x256 .f32) (q : Fin 10000) :
    pnormCol p (ix2 q (0 : Fin 1)) = Cert.Cosine.normP p q := by
  unfold pnormCol Cert.Cosine.normP Cert.Cosine.clampNorm
  refine (clampSqrt_apply _ _ _).trans (congrArg₂ max (congrArg Ideal.sqrt ?_) ?_)
  · rw [broadcastInDim_apply ![0] bcast_S10000_S10000x1_0 _ (ix2 q (0 : Fin 1)) (ix1 q) (fun a => by
      match a with
      | ⟨0, _⟩ => show q.val = if (10000 : Nat) = 1 then 0 else q.val; rw [if_neg (by decide)]), rowSumP_apply]
    rfl
  · exact (broadcastInDim_apply (![] : Fin 0 → Fin 2) bcast_S_S10000x1 _ (ix2 q (0 : Fin 1)) ix0 (fun a => a.elim0)).trans rfl

/-- Entry n of the column of x's norms is the specification's clamped norm of row n. -/
theorem xnormCol_apply (x : FVec Ideal S16384x256 .f32) (n : Fin 16384) :
    xnormCol x (ix2 n (0 : Fin 1)) = Cert.Cosine.normX x n := by
  unfold xnormCol Cert.Cosine.normX Cert.Cosine.clampNorm
  refine (clampSqrt_apply _ _ _).trans (congrArg₂ max (congrArg Ideal.sqrt ?_) ?_)
  · rw [broadcastInDim_apply ![0] bcast_S16384_S16384x1_0 _ (ix2 n (0 : Fin 1)) (ix1 n) (fun a => by
      match a with
      | ⟨0, _⟩ => show n.val = if (16384 : Nat) = 1 then 0 else n.val; rw [if_neg (by decide)]), rowSumX_apply]
    rfl
  · exact (broadcastInDim_apply (![] : Fin 0 → Fin 2) bcast_S_S16384x1 _ (ix2 n (0 : Fin 1)) ix0 (fun a => a.elim0)).trans rfl

/-- THE TABLE at a row inside p: the entry of p over its row's clamped norm. -/
theorem table_apply (p : FVec Ideal S10000x256 .f32) (q : Fin 10000) (k : Fin 256) (q' : Fin 10240) (hq : q'.val = q.val) :
    table p (ix2 q' k) = Ideal.div (p (ix2 q k)) (Cert.Cosine.normP p q) := by
  unfold table
  rw [pad_apply_of_inside ![0, 0] ![240, 0] ![0, 0] _ _ pads_S10000x256_S10240x256_02400_000 h_S_ (ix2 q' k) (ix2 q k) (fun a => by
    match a with
    | ⟨0, _⟩ => show q'.val = 0 + q.val * (0 + 1); omega
    | ⟨1, _⟩ => show k.val = 0 + k.val * (0 + 1); omega)]
  refine (hostDiv_apply p _ (ix2 q k)).trans (congrArg₂ Ideal.div rfl ?_)
  rw [broadcastInDim_apply ![0, 1] bcast_S10000x1_S10000x256_0_1 (pnormCol p) (ix2 q k) (ix2 q (0 : Fin 1)) (fun a => by
    match a with
    | ⟨0, _⟩ => show q.val = if (10000 : Nat) = 1 then 0 else q.val; rw [if_neg (by decide)]
    | ⟨1, _⟩ => show 0 = if (1 : Nat) = 1 then 0 else k.val; rw [if_pos rfl]), pnormCol_apply]

/-- THE COLUMN at entry n: the literal 1.0 over the row's clamped norm. -/
theorem recipCol_apply (x : FVec Ideal S16384x256 .f32) (n : Fin 16384) :
    recipCol x (ix2 n (0 : Fin 1)) = Ideal.div (Ideal.ofBits .f32 0x3F800000#32) (Cert.Cosine.normX x n) := by
  unfold recipCol
  refine (hostDiv_apply _ _ _).trans (congrArg₂ Ideal.div ?_ (xnormCol_apply x n))
  exact (broadcastInDim_apply (![] : Fin 0 → Fin 2) bcast_S_S16384x1 _ (ix2 n (0 : Fin 1)) ix0 (fun a => a.elim0)).trans rfl

end Cert.KernelIdeal.Prologue

end
-- ==== Proof.KernelValue.lean ====
/-
  The kernel's result array as a function of its two arguments.
  The blocks written back make the result (Σₖ x(n,k) · T(c,k)) · R(n,0) of the arrays the region finds; the host
  prologue made T(c,k) = p(c,k) / ‖p_c‖ on the 10000 rows inside p and R(n,0) = 1 / ‖xₙ‖; so element (n, c) is the
  specification's kernel arrangement `cosKer`, and where every entry of x and p is a real number that is the
  reference's arrangement `cosRef` (the law of the specification): the whole array is `cosArr x p`.
-/
import proofs.«123242_j56495999812266_2_alg».proof.Proof.Blocks
import proofs.«123242_j56495999812266_2_alg».proof.Proof.Prologue

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- THE RESULT ARRAY after the run, when both arguments hold real numbers only. -/
theorem final_cos (c : Dev nD)
    (hx : ∀ i, ∃ r : ℝ, m ((c : Thread nD τ).loc main_arg0) i = (r : EReal))
    (hp : ∀ i, ∃ r : ℝ, m ((c : Thread nD τ).loc main_arg1) i = (r : EReal)) :
    (dats m 0 c).arrAt 3 cfg0.N
      = Cert.Cosine.cosArr (m ((c : Thread nD τ).loc main_arg0)) (m ((c : Thread nD τ).loc main_arg1)) := by
  rw [Cert.KernelIdeal.Blocks.final, V_main_arg0, Cert.KernelIdeal.Prologue.V_table, Cert.KernelIdeal.Prologue.V_recip]
  funext i
  obtain ⟨n, c', rfl⟩ : ∃ (n : Fin 16384) (c' : Fin 10000), i = ix2 n c' := ⟨i 0, i 1, eq_ix2 i⟩
  have hc' : c'.val < 10240 := by have := c'.isLt; omega
  rw [Cert.KernelIdeal.Blocks.G_apply _ _ _ (ix2 n c') n ⟨c'.val, hc'⟩ rfl rfl, Cert.Cosine.cosArr_ix2,
    ← Cert.Cosine.cosKer_eq_cosRef _ _ hx hp n c']
  unfold Cert.Cosine.cosKer
  refine congrArg₂ (· * ·) (Finset.sum_congr rfl fun k _ => congrArg₂ (· * ·) rfl ?_) ?_
  · exact Cert.KernelIdeal.Prologue.table_apply _ c' k ⟨c'.val, hc'⟩ rfl
  · exact Cert.KernelIdeal.Prologue.recipCol_apply _ n

/-- THE KERNEL'S RUN, read: every weakly fair execution ends with the result array at `cosArr` of the arguments
    and the arguments unchanged, from any memory whose arguments hold real numbers only. -/
theorem run (hreal : ∀ c : Dev nD,
      (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c : Thread nD τ).loc main_v18)
          = Cert.Cosine.cosArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun r h c => ⟨(h c).1.trans (final_cos m c (hreal c).1 (hreal c).2), (h c).2⟩)
    (Cert.KernelIdeal.Value.run_blocks m ρ)

end Cert.KernelIdeal.Result

end
-- ==== Proof.RefValue.lean ====
/-
  The reference's result array, read at one element, is the specification's `cosRef`.
  The reference computes the 16384 × 10000 matrix of dot products as one host contraction of x with the
  transposed table, the two vectors of clamped norms (sum of squares from +0.0, square root, maximum with the
  literal ε), broadcasts the norms along the other axis, multiplies the two broadcasts and divides. Read at
  (n, c), each layout operation (transpose, the broadcasts) only moves the index: the contraction's operands sit at
  (n, k) and (c, k), the norm of x at row n, the norm of the table at row c.
-/
import proofs.«123242_j56495999812266_2_alg».proof.Proof.Gen.ReferenceIdeal.Read
import proofs.«123242_j56495999812266_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Where each operand is read, at output element (n, c) -/

/-- The contraction's left operand is x at (n, k); -/
theorem lidx_dot (n : Fin 16384) (c : Fin 10000) (k : Fin 256) : lidx_main_v1 (ix2 n c) k = ix2 n k :=
  funext fun a => Fin.ext (by match a with | ⟨0, _⟩ => rfl | ⟨1, _⟩ => rfl)
/-- its right operand, the transposed table at (k, c), is the table at (c, k). -/
theorem ridx_dot (n : Fin 16384) (c : Fin 10000) (k : Fin 256) : idx_main_v0 (ridx_main_v1 (ix2 n c) k) = ix2 c k :=
  funext fun a => Fin.ext (by match a with | ⟨0, _⟩ => rfl | ⟨1, _⟩ => rfl)
/-- The norm of x, kept as a column and broadcast along the lanes, sums the squares of row n; -/
theorem idx_normX (n : Fin 16384) (c : Fin 10000) (k : Fin 256) :
    idx_main_call0_v1 (idx_main_v8 (idx_main_v10 (ix2 n c))) k = ix2 n k :=
  funext fun a => Fin.ext (by match a with | ⟨0, _⟩ => rfl | ⟨1, _⟩ => rfl)
/-- the norm of the table, kept as a row and broadcast down the rows, sums the squares of row c. -/
theorem idx_normP (n : Fin 16384) (c : Fin 10000) (k : Fin 256) :
    idx_main_call1_v1 (idx_main_v9 (idx_main_v11 (ix2 n c))) k = ix2 c k :=
  funext fun a => Fin.ext (by match a with | ⟨0, _⟩ => rfl | ⟨1, _⟩ => rfl)

/-! ## The reference is `cosRef` -/

/-- ELEMENT (n, c) OF THE REFERENCE'S RESULT: the dot product of row n of x with row c of the table, over the product
    of their clamped norms. -/
theorem ref_apply (x0 : (⟨S16384x256, .f32⟩ : BufTy).Contents (Elt Ideal)) (x1 : (⟨S10000x256, .f32⟩ : BufTy).Contents (Elt Ideal))
    (n : Fin 16384) (c : Fin 10000) :
    val_main_v13 (F := Ideal) x0 x1 (ix2 n c) = Cert.Cosine.cosRef x0 x1 n c := by
  simp only [val_main_v13_apply, val_main_v1_apply, val_main_v0_apply, val_main_v12_apply, val_main_v10_apply, val_main_v8_apply,
    val_main_v4_apply, val_main_v2_apply, val_main_call0_v1_apply, val_main_call0_v0_apply, val_main_call0_cst_apply,
    val_main_v3_apply, val_main_cst_apply, val_main_v11_apply, val_main_v9_apply, val_main_v7_apply, val_main_v5_apply,
    val_main_call1_v1_apply, val_main_call1_v0_apply, val_main_call1_cst_apply, val_main_v6_apply, val_main_cst_0_apply,
    lidx_dot, ridx_dot, idx_normX, idx_normP]
  rfl

/-- So the reference's whole result array is the specification's `cosArr`. -/
theorem ref_eq (x0 : (⟨S16384x256, .f32⟩ : BufTy).Contents (Elt Ideal)) (x1 : (⟨S10000x256, .f32⟩ : BufTy).Contents (Elt Ideal)) :
    val_main_v13 (F := Ideal) x0 x1 = Cert.Cosine.cosArr x0 x1 := by
  funext i
  obtain ⟨n, c, rfl⟩ : ∃ (n : Fin 16384) (c : Fin 10000), i = ix2 n c := ⟨i 0, i 1, eq_ix2 i⟩
  exact ref_apply x0 x1 n c

end Cert.ReferenceIdeal.RefValue

end
-- ==== Proof.Finite.lean ====
/-
  The precondition, read back: every entry of both arguments is a real number.
  `finite_inputs` is the conjunction of two `all`s, one per argument, of the comparison |v| < +∞ of each entry v
  with the literal whose pattern denotes +∞. On the extended reals |v| = max(v, −v) is +∞ exactly at the two
  infinities, so the comparison holds exactly when v is (the image of) a real number.
-/
import proofs.«123242_j56495999812266_2_alg».proof.Pre_finite_inputs
import Idealize.ShloMosaic.Lib.ReduceAll
import Idealize.ShloMosaic.Lib.ValueIdx
import Idealize.ShloMosaic.PureOps.Ideal.Laws

noncomputable section

namespace Cert.Cosine.Finite

open Idealize.ShloMosaic Cert.Pre_finite_inputs

/-- The rank-zero shape has one index. -/
instance : Subsingleton S_.Idx := ⟨fun _ _ => funext fun d => d.elim0⟩

/-- The pattern 0x7F800000 denotes +∞. -/
theorem ofBits_inf : Ideal.ofBits .f32 0x7F800000#32 = ⊤ := by
  simp [Ideal.ofBits, Ideal.ieee]

/-- An extended real whose magnitude compares below +∞ is a real number. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | coe r => exact ⟨r, rfl⟩
  | top => simp [Ideal.cmp] at h

variable [Cert.Pre_finite_inputs.Facts]

/-- UNDER THE PRECONDITION every entry of x and of p is a real number. -/
theorem entries_real (x : FVec Ideal S16384x256 .f32) (p : FVec Ideal S10000x256 .f32)
    (h : fn (F := Ideal) x p = fun _ => 1#1) :
    (∀ i, ∃ r : ℝ, x i = (r : EReal)) ∧ (∀ i, ∃ r : ℝ, p i = (r : EReal)) := by
  have h0 := congrFun h ValueIdx.ix0
  dsimp only [fn] at h0
  change IntOp.andi _ _ = 1#1 at h0
  obtain ⟨hx, hp⟩ := IntOp.andi_eq_one.1 h0
  refine ⟨fun i => ?_, fun i => ?_⟩
  · have e := Host.reduce_andi_all _ _ _ _ ValueIdx.ix0 hx i
    exact real_of_abs_lt (x i) e
  · have e := Host.reduce_andi_all _ _ _ _ ValueIdx.ix0 hp i
    exact real_of_abs_lt (p i) e

end Cert.Cosine.Finite

end
-- ==== Proof.lean ====
/-
  Cosine similarity of 16384 rows x against 10000 prototype rows p (both of length 256): the kernel against
  its plain reference, on the extended reals.

  The reference forms all dot products Σₖ x(n,k)·p(c,k) in one contraction and divides element (n, c) by the
  product ‖xₙ‖·‖p_c‖ of the two Euclidean norms, each clamped below by the literal ε: ‖v‖ = max(√Σₖ vₖ², ε).
  The kernel divides every row of p by its clamped norm once on the host, pads that table with 240 zero rows to
  16 blocks of 640 rows, forms the column 1/‖xₙ‖, and on an 8 × 16 grid multiplies a 2048-row block of x with a
  640-row block of the table on the matrix unit and scales row n of the product by 1/‖xₙ‖; the last column block
  overhangs the 10000-column result by 240 columns and its write-back is cut there, so the padding rows never
  reach the result.

  The two agree because, for real entries, (Σₖ xₖ·(pₖ/b))·(1/a) = (Σₖ xₖ·pₖ)/(a·b) with a, b ≥ ε > 0; pulling the
  division out of the sum needs the entries real (at an infinity the sum may be ∞ − ∞), which is what the
  precondition gives: every entry of x and p compares below +∞ in magnitude.

  Frames: the two kernel programs' are the generated frame theorems; the reference has no kernel, and its frame is
  its run with the result dropped. The idealization rewrote nothing, so that conjunct is `True`.
-/
import proofs.«123242_j56495999812266_2_alg».proof.Defs
import proofs.«123242_j56495999812266_2_alg».proof.Proof.Gen.Kernel
import proofs.«123242_j56495999812266_2_alg».proof.Proof.Gen.Kernel.Frame
import proofs.«123242_j56495999812266_2_alg».proof.Proof.Gen.KernelIdeal
import proofs.«123242_j56495999812266_2_alg».proof.Proof.Gen.KernelIdeal.Frame
import proofs.«123242_j56495999812266_2_alg».proof.Proof.Gen.KernelIdeal.Value
import proofs.«123242_j56495999812266_2_alg».proof.Proof.Gen.ReferenceIdeal
import proofs.«123242_j56495999812266_2_alg».proof.Proof.Gen.ReferenceIdeal.Run
import proofs.«123242_j56495999812266_2_alg».proof.Proof.Gen.ReferenceIdeal.Read
import proofs.«123242_j56495999812266_2_alg».proof.Proof.Gen.Pre_finite_inputs
import proofs.«123242_j56495999812266_2_alg».proof.Proof.KernelValue
import proofs.«123242_j56495999812266_2_alg».proof.Proof.RefValue
import proofs.«123242_j56495999812266_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on x and p, all of whose entries are real, both programs end with the result array at
    `cosArr x p`: the kernel's by the blocks it writes back and the law joining the two arrangements, the reference's
    by reading its operations at an element. -/
theorem algebraic : Cert.algebraic_KernelIdeal_ReferenceIdeal := by
  intro m ρ m' ρ' hpre hagree
  refine ⟨fun c => Cert.Cosine.cosArr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Result.run m ρ (fun c => Cert.Cosine.Finite.entries_real _ _ (hpre c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq, Cert.ReferenceIdeal.RefValue.ref_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
